-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x256 : Shape := ⟨2, ![262144, 256]⟩
abbrev S1x256 : Shape := ⟨2, ![1, 256]⟩
abbrev S256x128 : Shape := ⟨2, ![256, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x256 : S_.BroadcastsInDim S262144x256 (![] : Fin 0 → Fin S262144x256.rank)
  reducesTo_S262144x256_S_d0_1 : S262144x256.ReducesTo [0, 1] S_
  bcast_S_S1x256 : S_.BroadcastsInDim S1x256 (![] : Fin 0 → Fin S1x256.rank)
  reducesTo_S1x256_S_d0_1 : S1x256.ReducesTo [0, 1] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg7 : FVec F S1x256 .f32) (main_v33 : IVec S_ 1) : IVec S_ 1 :=
  let main_v34 : FVec F S1x256 .f32 := Host.absf main_arg7
  let main_cst_12 : FVec F S_ .f32 := constant S_ .f32 0x7F800000#32
  let main_v35 : FVec F S1x256 .f32 := broadcastInDim S1x256 ![] bcast_S_S1x256 main_cst_12
  let main_v36 : IVec S1x256 1 := cmpf .olt main_v34 main_v35
  let main_c_13 : IVec S_ 1 := constantI S_ 1 1#1
  let main_v37 : IVec S_ 1 := (fun x v => Host.reduce IntOp.andi x v reducesTo_S1x256_S_d0_1 h_S_) main_v36 main_c_13
  let main_v38 : IVec S_ 1 := andi main_v33 main_v37
  main_v38

def fn_part1 {F : FTy → Type} [FloatOps F] (main_arg4 : FVec F S1x256 .f32) (main_arg5 : FVec F S256x128 .f32) (main_arg6 : FVec F S256x128 .f32) (main_arg7 : FVec F S1x256 .f32) (main_v13 : IVec S_ 1) (main_v16 : IVec S1x256 1) : IVec S_ 1 :=
  let main_c_5 : IVec S_ 1 := constantI S_ 1 1#1
  let main_v17 : IVec S_ 1 := (fun x v => Host.reduce IntOp.andi x v reducesTo_S1x256_S_d0_1 h_S_) main_v16 main_c_5
  let main_v18 : IVec S_ 1 := andi main_v13 main_v17
  let main_v19 : FVec F S1x256 .f32 := Host.absf main_arg4
  let main_cst_6 : FVec F S_ .f32 := constant S_ .f32 0x7F800000#32
  let main_v20 : FVec F S1x256 .f32 := broadcastInDim S1x256 ![] bcast_S_S1x256 main_cst_6
  let main_v21 : IVec S1x256 1 := cmpf .olt main_v19 main_v20
  let main_c_7 : IVec S_ 1 := constantI S_ 1 1#1
  let main_v22 : IVec S_ 1 := (fun x v => Host.reduce IntOp.andi x v reducesTo_S1x256_S_d0_1 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_v33

def fn {F : FTy → Type} [FloatOps F] (main_arg0 : FVec F S262144x128 .f32) (main_arg1 : FVec F S262144x256 .f32) (main_arg2 : FVec F S262144x256 .f32) (main_arg3 : FVec F S1x256 .f32) (main_arg4 : FVec F S1x256 .f32) (main_arg5 : FVec F S256x128 .f32) (main_arg6 : FVec F S256x128 .f32) (main_arg7 : FVec F S1x256 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x256 .f32 := Host.absf main_arg1
  let main_cst_0 : FVec F S_ .f32 := constant S_ .f32 0x7F800000#32
  let main_v5 : FVec F S262144x256 .f32 := broadcastInDim S262144x256 ![] bcast_S_S262144x256 main_cst_0
  let main_v6 : IVec S262144x256 1 := cmpf .olt main_v4 main_v5
  let main_c_1 : IVec S_ 1 := constantI S_ 1 1#1
  let main_v7 : IVec S_ 1 := (fun x v => Host.reduce IntOp.andi x v reducesTo_S262144x256_S_d0_1 h_S_) main_v6 main_c_1
  let main_v8 : IVec S_ 1 := andi main_v3 main_v7
  let main_v9 : FVec F S262144x256 .f32 := Host.absf main_arg2
  let main_cst_2 : FVec F S_ .f32 := constant S_ .f32 0x7F800000#32
  let main_v10 : FVec F S262144x256 .f32 := broadcastInDim S262144x256 ![] bcast_S_S262144x256 main_cst_2
  let main_v11 : IVec S262144x256 1 := cmpf .olt main_v9 main_v10
  let main_c_3 : IVec S_ 1 := constantI S_ 1 1#1
  let main_v12 : IVec S_ 1 := (fun x v => Host.reduce IntOp.andi x v reducesTo_S262144x256_S_d0_1 h_S_) main_v11 main_c_3
  let main_v13 : IVec S_ 1 := andi main_v8 main_v12
  let main_v14 : FVec F S1x256 .f32 := Host.absf main_arg3
  let main_cst_4 : FVec F S_ .f32 := constant S_ .f32 0x7F800000#32
  let main_v15 : FVec F S1x256 .f32 := broadcastInDim S1x256 ![] bcast_S_S1x256 main_cst_4
  let main_v16 : IVec S1x256 1 := cmpf .olt main_v14 main_v15
  fn_part1 (F := F) main_arg4 main_arg5 main_arg6 main_arg7 main_v13 main_v16
-- ==== Kernel.lean ====
abbrev S262144x128 : Shape := ⟨2, ![262144, 128]⟩
abbrev S262144x256 : Shape := ⟨2, ![262144, 256]⟩
abbrev S1x256 : Shape := ⟨2, ![1, 256]⟩
abbrev S256x128 : Shape := ⟨2, ![256, 128]⟩
abbrev S128x256 : Shape := ⟨2, ![128, 256]⟩
abbrev S128x512 : Shape := ⟨2, ![128, 512]⟩
abbrev S2x262144x256 : Shape := ⟨3, ![2, 262144, 256]⟩
abbrev S2048x128 : Shape := ⟨2, ![2048, 128]⟩
abbrev S2048x256 : Shape := ⟨2, ![2048, 256]⟩
abbrev S2x2048x256 : Shape := ⟨3, ![2, 2048, 256]⟩
abbrev S2048x512 : Shape := ⟨2, ![2048, 512]⟩
abbrev S1x2048x256 : Shape := ⟨3, ![1, 2048, 256]⟩

abbrev nBuf : Space → Nat
  | .hbm => 27
  | .vmem => 11
  | .smem => 0
  | _ => 0

abbrev bufTy : (tb : Table) → Fin (tcTables nBuf tb) → BufTy
  | .hbm, ⟨0, _⟩ => ⟨S262144x128, .f32⟩
  | .hbm, ⟨1, _⟩ => ⟨S262144x256, .f32⟩
  | .hbm, ⟨2, _⟩ => ⟨S262144x256, .f32⟩
  | .hbm, ⟨3, _⟩ => ⟨S1x256, .f32⟩
  | .hbm, ⟨4, _⟩ => ⟨S1x256, .f32⟩
  | .hbm, ⟨5, _⟩ => ⟨S256x128, .f32⟩
  | .hbm, ⟨6, _⟩ => ⟨S256x128, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S128x256, .f32⟩
  | .hbm, ⟨18, _⟩ => ⟨S128x256, .f32⟩
  | .hbm, ⟨19, _⟩ => ⟨S128x256, .f32⟩
  | .hbm, ⟨20, _⟩ => ⟨S128x256, .bf16⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S128x256, .bf16⟩
  | .hbm, ⟨25, _⟩ => ⟨S128x512, .bf16⟩
  | .hbm, ⟨26, _⟩ => ⟨S2x262144x256, .f32⟩
  | .local _ .vmem, ⟨0, _⟩ => ⟨S2048x128, .f32⟩
  | .local _ .vmem, ⟨1, _⟩ => ⟨S2048x128, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S1x256, .f32⟩
  | .local _ .vmem, ⟨7, _⟩ => ⟨S1x256, .f32⟩
  | .local _ .vmem, ⟨8, _⟩ => ⟨S128x512, .bf16⟩
  | .local _ .vmem, ⟨9, _⟩ => ⟨S2x2048x256, .f32⟩
  | .local _ .vmem, ⟨10, _⟩ => ⟨S2x2048x256, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  transposes_S256x128_S128x256_1_0 : S256x128.Transposes [1, 0] S128x256
  bcast_S1x256_S128x256_0_1 : S1x256.BroadcastsInDim S128x256 (![0, 1] : Fin 2 → Fin S128x256.rank)
  bitsLt_bf16_f32 : FTy.bits .bf16 < FTy.bits .f32
  concatenates_S128x256_S128x256_S128x512_d1 : Shape.Concatenates [S128x256, S128x256] S128x512 1
  inb_S2048x128_S2048x128_0_0 : ∀ a, (![0, 0] : Fin 2 → Nat) a + S2048x128.size a ≤ S2048x128.size a
  h_S2048x128 : 0 < S2048x128.numel
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S2048x512_o0_0_S2048x256 : S2048x512.Slices ![0, 0] S2048x256
  slices_S2048x512_o0_256_S2048x256 : S2048x512.Slices ![0, 256] S2048x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2048x256_S2048x256_0_0 : ∀ a, (![0, 0] : Fin 2 → Nat) a + S2048x256.size a ≤ S2048x256.size a
  h_S2048x256 : 0 < S2048x256.numel
  broadcasts_S1x256_S2048x256 : S1x256.Broadcasts S2048x256
  inb_S2x2048x256_S1x2048x256_0_0_0 : ∀ a, (![0, 0, 0] : Fin 3 → Nat) a + S1x2048x256.size a ≤ S2x2048x256.size a
  h_S1x2048x256 : 0 < S1x2048x256.numel
  shapeCasts_S1x2048x256_S2048x256 : S1x2048x256.ShapeCasts S2048x256
  shapeCasts_S2048x256_S1x2048x256 : S2048x256.ShapeCasts S1x2048x256
  inb_S2x2048x256_S1x2048x256_1_0_0 : ∀ a, (![1, 0, 0] : Fin 3 → Nat) a + S1x2048x256.size a ≤ S2x2048x256.size a
  dot_S2048x128_S128x512_S2048x512_1_0_0_1_n_n_wf : DotDims.WF S2048x128 S128x512 S2048x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S262144x128.size a
  hwx0_0 : ∀ i : grid0.Coords, EltTy.bits .f32 = 32 ∨ (Rect.block (s := S262144x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S262144x256.size a
  hwx0_1 : ∀ i : grid0.Coords, EltTy.bits .f32 = 32 ∨ (Rect.block (s := S262144x256) S2048x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S262144x256.size a
  hwx0_2 : ∀ i : grid0.Coords, EltTy.bits .f32 = 32 ∨ (Rect.block (s := S262144x256) S2048x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x512.size a ≤ S128x512.size a
  hwx0_5 : ∀ i : grid0.Coords, EltTy.bits .bf16 = 32 ∨ (Rect.block (s := S128x512) S128x512.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x2048x256.size a ≤ S2x262144x256.size a
  hwx0_6 : ∀ i : grid0.Coords, EltTy.bits .f32 = 32 ∨ (Rect.block (s := S2x262144x256) S2x2048x256.size (cc0_transform_6 i) (hinb0_6 i)).WholeWords (EltTy.packing .f32)

variable [Facts₀]

def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S128x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2x2048x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S262144x128 : Shape := ⟨2, ![262144, 128]⟩
abbrev S262144x256 : Shape := ⟨2, ![262144, 256]⟩
abbrev S1x256 : Shape := ⟨2, ![1, 256]⟩
abbrev S256x128 : Shape := ⟨2, ![256, 128]⟩
abbrev S256x1 : Shape := ⟨2, ![256, 1]⟩
abbrev S128x256 : Shape := ⟨2, ![128, 256]⟩
abbrev S1x262144x256 : Shape := ⟨3, ![1, 262144, 256]⟩
abbrev S2x262144x256 : Shape := ⟨3, ![2, 262144, 256]⟩

abbrev nBuf : Space → Nat
  | .hbm => 41
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S262144x256, .f32⟩
  | .hbm, ⟨2, _⟩ => ⟨S262144x256, .f32⟩
  | .hbm, ⟨3, _⟩ => ⟨S1x256, .f32⟩
  | .hbm, ⟨4, _⟩ => ⟨S1x256, .f32⟩
  | .hbm, ⟨5, _⟩ => ⟨S256x128, .f32⟩
  | .hbm, ⟨6, _⟩ => ⟨S256x128, .f32⟩
  | .hbm, ⟨7, _⟩ => ⟨S1x256, .f32⟩
  | .hbm, ⟨8, _⟩ => ⟨S1x256, .f32⟩
  | .hbm, ⟨9, _⟩ => ⟨S1x256, .f32⟩
  | .hbm, ⟨10, _⟩ => ⟨S1x256, .f32⟩
  | .hbm, ⟨11, _⟩ => ⟨S1x256, .f32⟩
  | .hbm, ⟨12, _⟩ => ⟨S1x256, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S256x1, .f32⟩
  | .hbm, ⟨18, _⟩ => ⟨S256x128, .f32⟩
  | .hbm, ⟨19, _⟩ => ⟨S256x128, .f32⟩
  | .hbm, ⟨20, _⟩ => ⟨S128x256, .f32⟩
  | .hbm, ⟨21, _⟩ => ⟨S262144x256, .f32⟩
  | .hbm, ⟨22, _⟩ => ⟨S256x128, .f32⟩
  | .hbm, ⟨23, _⟩ => ⟨S256x128, .f32⟩
  | .hbm, ⟨24, _⟩ => ⟨S128x256, .f32⟩
  | .hbm, ⟨25, _⟩ => ⟨S262144x256, .f32⟩
  | .hbm, ⟨26, _⟩ => ⟨S262144x256, .f32⟩
  | .hbm, ⟨27, _⟩ => ⟨S262144x256, .f32⟩
  | .hbm, ⟨28, _⟩ => ⟨S262144x256, .f32⟩
  | .hbm, ⟨29, _⟩ => ⟨S262144x256, .f32⟩
  | .hbm, ⟨30, _⟩ => ⟨S262144x256, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S262144x256, .f32⟩
  | .hbm, ⟨35, _⟩ => ⟨S262144x256, .f32⟩
  | .hbm, ⟨36, _⟩ => ⟨S262144x256, .f32⟩
  | .hbm, ⟨37, _⟩ => ⟨S262144x256, .f32⟩
  | .hbm, ⟨38, _⟩ => ⟨S1x262144x256, .f32⟩
  | .hbm, ⟨39, _⟩ => ⟨S1x262144x256, .f32⟩
  | .hbm, ⟨40, _⟩ => ⟨S2x262144x256, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]

class Facts₀ : Prop where
  transposes_S1x256_S256x1_1_0 : S1x256.Transposes [1, 0] S256x1
  bcast_S256x1_S256x128_0_1 : S256x1.BroadcastsInDim S256x128 (![0, 1] : Fin 2 → Fin S256x128.rank)
  transposes_S256x128_S128x256_1_0 : S256x128.Transposes [1, 0] S128x256
  bcast_S1x256_S262144x256_0_1 : S1x256.BroadcastsInDim S262144x256 (![0, 1] : Fin 2 → Fin S262144x256.rank)
  bcast_S262144x256_S1x262144x256_1_2 : S262144x256.BroadcastsInDim S1x262144x256 (![1, 2] : Fin 2 → Fin S1x262144x256.rank)
  concatenates_S1x262144x256_S1x262144x256_S2x262144x256_d0 : Shape.Concatenates [S1x262144x256, S1x262144x256] S2x262144x256 0
  dot_S262144x128_S128x256_S262144x256_1_0_0_1_n_n_wf : DotDims.WF S262144x128 S128x256 S262144x256 [1] [0] [0] [1] [] []

variable [Facts₀]

def dot_S262144x128_S128x256_S262144x256_1_0_0_1_n_n : DotDims S262144x128 S128x256 S262144x256 where
  lhsContracting := [1]
  rhsContracting := [0]
  lhsNonContracting := [0]
  rhsNonContracting := [1]
  lhsBatch := []
  rhsBatch := []
  wf := dot_S262144x128_S128x256_S262144x256_1_0_0_1_n_n_wf

class Facts : Prop extends Facts₀ where

variable [Facts]
-- ==== Proof.Spec.lean ====
/-
  One step of a diagonal complex linear recurrence, as a function of its arguments on the extended reals.

  The state is a complex vector per batch row, held as a real part `hre` and an imaginary part `him` ([B, H] each);
  the diagonal transition is the complex number `λ = exp (-exp ν + i · exp θ)` per hidden unit, that is
  `λ = exp (-exp ν) · (cos (exp θ) + i · sin (exp θ))`; the input `x` ([B, I]) enters through a complex matrix
  `W = Wre + i · Wim` ([H, I]) whose rows are scaled by the positive gain `exp γ`. The new state is
  `λ ⊙ h + x · (gain ⊙ W)ᵀ`, and in real and imaginary parts
      re (b, h) = λre h · hre (b, h) − λim h · him (b, h) + ∑ k, x (b, k) · (gain h · Wre (h, k))
      im (b, h) = λre h · him (b, h) + λim h · hre (b, h) + ∑ k, x (b, k) · (gain h · Wim (h, k)),
  stacked on a leading axis of extent two. Both programs of this certificate compute exactly this function at the
  ideal values; they differ in where the gain multiplies the weight (on the left or on the right of each entry) and in
  how the two projections are laid out (two products, or one product against the two scaled weights side by side).
-/
import Idealize.ShloMosaic.PureOps.Ideal
import Idealize.ShloMosaic.Lib.ValueIdx

noncomputable section

namespace Cert.LruStep

open Idealize.ShloMosaic Idealize.ShloMosaic.ValueIdx

/-- The input rows, [B, I]. -/
abbrev SIn : Shape := ⟨2, ![262144, 128]⟩
/-- A state part, [B, H]. -/
abbrev SHid : Shape := ⟨2, ![262144, 256]⟩
/-- A per-unit parameter row, [1, H]. -/
abbrev SRow : Shape := ⟨2, ![1, 256]⟩
/-- An input weight part, [H, I]. -/
abbrev SW : Shape := ⟨2, ![256, 128]⟩
/-- The new state, real part then imaginary part, [2, B, H]. -/
abbrev SOut : Shape := ⟨3, ![2, 262144, 256]⟩

/-- The real part of the transition, `exp (-exp ν) · cos (exp θ)`, per hidden unit. -/
def lamRe (nu th : FVec Ideal SRow .f32) : FVec Ideal SRow .f32 :=
  mulf (Host.exp (Host.negf (Host.exp nu))) (Host.cos (Host.exp th))

/-- The imaginary part of the transition, `exp (-exp ν) · sin (exp θ)`, per hidden unit. -/
def lamIm (nu th : FVec Ideal SRow .f32) : FVec Ideal SRow .f32 :=
  mulf (Host.exp (Host.negf (Host.exp nu))) (Host.sin (Host.exp th))

/-- The gain `exp γ` per hidden unit. -/
def gain (g : FVec Ideal SRow .f32) : FVec Ideal SRow .f32 := Host.exp g

/-- The real part of the new state at batch row `b` and hidden unit `h`. -/
def outRe (x : FVec Ideal SIn .f32) (hre him : FVec Ideal SHid .f32) (lre lim sc : FVec Ideal SRow .f32)
    (wre : FVec Ideal SW .f32) (b : Fin 262144) (h : Fin 256) : EReal :=
  lre (ix2 (0 : Fin 1) h) * hre (ix2 b h) - lim (ix2 (0 : Fin 1) h) * him (ix2 b h)
    + ∑ k : Fin 128, x (ix2 b k) * (sc (ix2 (0 : Fin 1) h) * wre (ix2 h k))

/-- The imaginary part of the new state at batch row `b` and hidden unit `h`. -/
def outIm (x : FVec Ideal SIn .f32) (hre him : FVec Ideal SHid .f32) (lre lim sc : FVec Ideal SRow .f32)
    (wim : FVec Ideal SW .f32) (b : Fin 262144) (h : Fin 256) : EReal :=
  lre (ix2 (0 : Fin 1) h) * him (ix2 b h) + lim (ix2 (0 : Fin 1) h) * hre (ix2 b h)
    + ∑ k : Fin 128, x (ix2 b k) * (sc (ix2 (0 : Fin 1) h) * wim (ix2 h k))

/-- The new state: the real part on the first slab of the leading axis, the imaginary part on the second. -/
def step (x : FVec Ideal SIn .f32) (hre him : FVec Ideal SHid .f32) (lre lim sc : FVec Ideal SRow .f32)
    (wre wim : FVec Ideal SW .f32) : FVec Ideal SOut .f32 := fun i =>
  if (i 0).val = 0 then outRe x hre him lre lim sc wre (i 1) (i 2) else outIm x hre him lre lim sc wim (i 1) (i 2)

/-- On the first slab the new state is its real part. -/
theorem step_re (x : FVec Ideal SIn .f32) (hre him : FVec Ideal SHid .f32) (lre lim sc : FVec Ideal SRow .f32)
    (wre wim : FVec Ideal SW .f32) (s : Fin 2) (hs : s.val = 0) (b : Fin 262144) (h : Fin 256) :
    step x hre him lre lim sc wre wim (ix3 s b h) = outRe x hre him lre lim sc wre b h := by
  show (if s.val = 0 then outRe x hre him lre lim sc wre b h else outIm x hre him lre lim sc wim b h) = _
  rw [if_pos hs]

/-- On the second slab the new state is its imaginary part. -/
theorem step_im (x : FVec Ideal SIn .f32) (hre him : FVec Ideal SHid .f32) (lre lim sc : FVec Ideal SRow .f32)
    (wre wim : FVec Ideal SW .f32) (s : Fin 2) (hs : s.val = 1) (b : Fin 262144) (h : Fin 256) :
    step x hre him lre lim sc wre wim (ix3 s b h) = outIm x hre him lre lim sc wim b h := by
  show (if s.val = 0 then outRe x hre him lre lim sc wre b h else outIm x hre him lre lim sc wim b h) = _
  rw [if_neg (by omega)]

end Cert.LruStep

end
-- ==== Proof.RefIsStep.lean ====
/-
  The reference program computes the recurrence step.

  The reference's last operation stacks two [1, B, H] pieces along a new leading axis. Read at the index (s, b, h) it
  is piece s at (0, b, h). Piece 0 is, with a unit axis put in front, the [B, H] array whose (b, h) entry is
      λre h · hre (b, h) − λim h · him (b, h) + ∑ k, x (b, k) · (gain h · Wre (h, k)),
  where λre, λim and gain are the [1, H] rows of the transition's real part, its imaginary part and the gain, each
  stretched along the batch axis (resp. the input axis) before it multiplies. Piece 1 is the same with the two state
  parts exchanged, a sum in place of the difference, and Wim in place of Wre. These are the two slabs of
  Cert.LruStep.step, entry by entry and with the products in the same order, so no law of arithmetic is used: every
  stage is read at one index, and the indices are compared coordinate by coordinate.
-/
import proofs.«121439_j15032385536244_2_alg».proof.Proof.RefRead
import proofs.«121439_j15032385536244_2_alg».proof.Proof.Spec
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.ReadP Cert.LruStep Idealize.ShloMosaic Idealize.ShloMosaic.ValueIdx

/-! ## The three parameter rows -/

/-- The reference's row exp (-exp ν) · cos (exp θ) is the real part of the transition. -/
theorem v5_eq_lamRe (x3 x4 : (⟨S1x256, .f32⟩ : BufTy).Contents (Elt Ideal)) :
    val_main_v5 (F := Ideal) x3 x4 = lamRe x3 x4 := rfl

/-- The reference's row exp (-exp ν) · sin (exp θ) is the imaginary part of the transition. -/
theorem v7_eq_lamIm (x3 x4 : (⟨S1x256, .f32⟩ : BufTy).Contents (Elt Ideal)) :
    val_main_v7 (F := Ideal) x3 x4 = lamIm x3 x4 := rfl

/-- The reference's row exp γ is the gain. -/
theorem v8_eq_gain (x7 : (⟨S1x256, .f32⟩ : BufTy).Contents (Elt Ideal)) :
    val_main_v8 (F := Ideal) x7 = gain x7 := rfl

/-! ## Where each stage reads -/

/-- Dropping the unit leading axis: entry (0, b, h) of a piece is entry (b, h) of the [B, H] array under it. -/
theorem idx30_at (u : Fin 1) (b : Fin 262144) (h : Fin 256) : idx_main_v30 (ix3 u b h) = ix2 b h :=
  funext fun a => Fin.ext (by match a with | ⟨0, _⟩ => rfl | ⟨1, _⟩ => rfl)

/-- The same for the second piece. -/
theorem idx31_at (u : Fin 1) (b : Fin 262144) (h : Fin 256) : idx_main_v31 (ix3 u b h) = ix2 b h :=
  funext fun a => Fin.ext (by match a with | ⟨0, _⟩ => rfl | ⟨1, _⟩ => rfl)

/-- A [1, H] row stretched along the batch axis reads, at (b, h), the row's entry (0, h): the real part's row in
    the first piece. -/
theorem idx18_at (b : Fin 262144) (h : Fin 256) : idx_main_v18 (ix2 b h) = ix2 (0 : Fin 1) h :=
  funext fun a => Fin.ext (by match a with | ⟨0, _⟩ => rfl | ⟨1, _⟩ => rfl)
/-- The same for the imaginary part's row in the first piece. -/
theorem idx20_at (b : Fin 262144) (h : Fin 256) : idx_main_v20 (ix2 b h) = ix2 (0 : Fin 1) h :=
  funext fun a => Fin.ext (by match a with | ⟨0, _⟩ => rfl | ⟨1, _⟩ => rfl)
/-- The same for the real part's row in the second piece. -/
theorem idx24_at (b : Fin 262144) (h : Fin 256) : idx_main_v24 (ix2 b h) = ix2 (0 : Fin 1) h :=
  funext fun a => Fin.ext (by match a with | ⟨0, _⟩ => rfl | ⟨1, _⟩ => rfl)
/-- The same for the imaginary part's row in the second piece. -/
theorem idx26_at (b : Fin 262144) (h : Fin 256) : idx_main_v26 (ix2 b h) = ix2 (0 : Fin 1) h :=
  funext fun a => Fin.ext (by match a with | ⟨0, _⟩ => rfl | ⟨1, _⟩ => rfl)

/-- The product's left operand at output entry (b, h) and contracted position k is x (b, k). -/
theorem lidx13_at (b : Fin 262144) (h : Fin 256) (k : Fin 128) : lidx_main_v13 (ix2 b h) k = ix2 b k :=
  funext fun a => Fin.ext (by match a with | ⟨0, _⟩ => rfl | ⟨1, _⟩ => rfl)
/-- The same for the second product. -/
theorem lidx17_at (b : Fin 262144) (h : Fin 256) (k : Fin 128) : lidx_main_v17 (ix2 b h) k = ix2 b k :=
  funext fun a => Fin.ext (by match a with | ⟨0, _⟩ => rfl | ⟨1, _⟩ => rfl)

/-- The product's right operand is the scaled weight transposed: at output entry (b, h) and contracted position k it
    reads the scaled weight's entry (h, k). -/
theorem idx12_ridx13_at (b : Fin 262144) (h : Fin 256) (k : Fin 128) :
    idx_main_v12 (ridx_main_v13 (ix2 b h) k) = ix2 h k :=
  funext fun a => Fin.ext (by match a with | ⟨0, _⟩ => rfl | ⟨1, _⟩ => rfl)
/-- The same for the second product: it reads the second scaled weight's entry (h, k). -/
theorem idx16_ridx17_at (b : Fin 262144) (h : Fin 256) (k : Fin 128) :
    idx_main_v16 (ridx_main_v17 (ix2 b h) k) = ix2 h k :=
  funext fun a => Fin.ext (by match a with | ⟨0, _⟩ => rfl | ⟨1, _⟩ => rfl)

/-- The gain row, transposed to a column and stretched along the input axis, reads at (h, k) the row's entry (0, h). -/
theorem idx9_idx10_at (h : Fin 256) (k : Fin 128) : idx_main_v9 (idx_main_v10 (ix2 h k)) = ix2 (0 : Fin 1) h :=
  funext fun a => Fin.ext (by match a with | ⟨0, _⟩ => rfl | ⟨1, _⟩ => rfl)
/-- The same for the gain in front of the second weight. -/
theorem idx9_idx14_at (h : Fin 256) (k : Fin 128) : idx_main_v9 (idx_main_v14 (ix2 h k)) = ix2 (0 : Fin 1) h :=
  funext fun a => Fin.ext (by match a with | ⟨0, _⟩ => rfl | ⟨1, _⟩ => rfl)

/-! ## The scaled weights -/

/-- Entry (k, h) of the first product's right operand is gain h · Wre (h, k). -/
theorem v12_at (x5 : (⟨S256x128, .f32⟩ : BufTy).Contents (Elt Ideal)) (x7 : (⟨S1x256, .f32⟩ : BufTy).Contents (Elt Ideal))
    (b : Fin 262144) (h : Fin 256) (k : Fin 128) :
    val_main_v12 (F := Ideal) x5 x7 (ridx_main_v13 (ix2 b h) k) = gain x7 (ix2 (0 : Fin 1) h) * x5 (ix2 h k) := by
  rw [val_main_v12_apply, val_main_v11_apply, val_main_v10_apply, val_main_v9_apply, idx12_ridx13_at, idx9_idx10_at]
  rfl

/-- Entry (k, h) of the second product's right operand is gain h · Wim (h, k). -/
theorem v16_at (x6 : (⟨S256x128, .f32⟩ : BufTy).Contents (Elt Ideal)) (x7 : (⟨S1x256, .f32⟩ : BufTy).Contents (Elt Ideal))
    (b : Fin 262144) (h : Fin 256) (k : Fin 128) :
    val_main_v16 (F := Ideal) x6 x7 (ridx_main_v17 (ix2 b h) k) = gain x7 (ix2 (0 : Fin 1) h) * x6 (ix2 h k) := by
  rw [val_main_v16_apply, val_main_v15_apply, val_main_v14_apply, val_main_v9_apply, idx16_ridx17_at, idx9_idx14_at]
  rfl

/-! ## The two pieces -/

/-- Entry (0, b, h) of the first piece is the real part of the new state at (b, h). -/
theorem v30_at (x0 : (⟨S262144x128, .f32⟩ : BufTy).Contents (Elt Ideal)) (x1 x2 : (⟨S262144x256, .f32⟩ : BufTy).Contents (Elt Ideal))
    (x3 x4 : (⟨S1x256, .f32⟩ : BufTy).Contents (Elt Ideal)) (x5 : (⟨S256x128, .f32⟩ : BufTy).Contents (Elt Ideal))
    (x7 : (⟨S1x256, .f32⟩ : BufTy).Contents (Elt Ideal)) (u : Fin 1) (b : Fin 262144) (h : Fin 256) :
    val_main_v30 (F := Ideal) x0 x1 x2 x3 x4 x5 x7 (ix3 u b h)
      = outRe x0 x1 x2 (lamRe x3 x4) (lamIm x3 x4) (gain x7) x5 b h := by
  rw [val_main_v30_apply, val_main_v23_apply, val_main_v22_apply, val_main_v19_apply, val_main_v18_apply,
    val_main_v21_apply, val_main_v20_apply, val_main_v13_apply, idx30_at, idx18_at, idx20_at]
  rw [Finset.sum_congr rfl fun k _ => by rw [lidx13_at, v12_at]]
  rfl

/-- Entry (0, b, h) of the second piece is the imaginary part of the new state at (b, h). -/
theorem v31_at (x0 : (⟨S262144x128, .f32⟩ : BufTy).Contents (Elt Ideal)) (x1 x2 : (⟨S262144x256, .f32⟩ : BufTy).Contents (Elt Ideal))
    (x3 x4 : (⟨S1x256, .f32⟩ : BufTy).Contents (Elt Ideal)) (x6 : (⟨S256x128, .f32⟩ : BufTy).Contents (Elt Ideal))
    (x7 : (⟨S1x256, .f32⟩ : BufTy).Contents (Elt Ideal)) (u : Fin 1) (b : Fin 262144) (h : Fin 256) :
    val_main_v31 (F := Ideal) x0 x1 x2 x3 x4 x6 x7 (ix3 u b h)
      = outIm x0 x1 x2 (lamRe x3 x4) (lamIm x3 x4) (gain x7) x6 b h := by
  rw [val_main_v31_apply, val_main_v29_apply, val_main_v28_apply, val_main_v25_apply, val_main_v24_apply,
    val_main_v27_apply, val_main_v26_apply, val_main_v17_apply, idx31_at, idx24_at, idx26_at]
  rw [Finset.sum_congr rfl fun k _ => by rw [lidx17_at, v16_at]]
  rfl

/-! ## The stacked result -/

/-- The reference's result is the recurrence step of its arguments: at (s, b, h) the stacking reads piece s at
    (0, b, h), which is the real part for s = 0 and the imaginary part for s = 1. -/
theorem reference_is_step
    (x0 : (⟨S262144x128, .f32⟩ : BufTy).Contents (Elt Ideal)) (x1 x2 : (⟨S262144x256, .f32⟩ : BufTy).Contents (Elt Ideal))
    (x3 x4 : (⟨S1x256, .f32⟩ : BufTy).Contents (Elt Ideal)) (x5 x6 : (⟨S256x128, .f32⟩ : BufTy).Contents (Elt Ideal))
    (x7 : (⟨S1x256, .f32⟩ : BufTy).Contents (Elt Ideal)) :
    val_main_v32 (F := Ideal) x0 x1 x2 x3 x4 x5 x6 x7 = step x0 x1 x2 (lamRe x3 x4) (lamIm x3 x4) (gain x7) x5 x6 := by
  funext i
  obtain ⟨s, b, h, rfl⟩ : ∃ (s : Fin 2) (b : Fin 262144) (h : Fin 256), i = ix3 s b h := ⟨i 0, i 1, i 2, eq_ix3 i⟩
  have hs : s.val = 0 ∨ s.val = 1 := by omega
  rcases hs with hs | hs
  · rw [step_re _ _ _ _ _ _ _ _ s hs b h, ← v30_at x0 x1 x2 x3 x4 x5 x7 (0 : Fin 1) b h]
    unfold val_main_v32
    exact concatenate_pair_apply_left (s₁ := S1x262144x256) (s₂ := S1x262144x256) (0 : Fin S2x262144x256.rank) _ _ _ (ix3 s b h) rfl (ix3 (0 : Fin 1) b h)
      (fun a => by match a with | ⟨0, _⟩ => exact hs.symm | ⟨1, _⟩ => rfl | ⟨2, _⟩ => rfl)
  · rw [step_im _ _ _ _ _ _ _ _ s hs b h, ← v31_at x0 x1 x2 x3 x4 x6 x7 (0 : Fin 1) b h]
    unfold val_main_v32
    exact concatenate_pair_apply_right (s₁ := S1x262144x256) (s₂ := S1x262144x256) (0 : Fin S2x262144x256.rank) _ _ _ (ix3 s b h) rfl rfl (ix3 (0 : Fin 1) b h)
      (fun a => by
        match a with
        | ⟨0, _⟩ => exact fun hne => absurd rfl hne
        | ⟨1, _⟩ => exact fun _ => rfl
        | ⟨2, _⟩ => exact fun _ => rfl)
      (by show 0 + 1 = s.val; omega)

end Cert.ReferenceIdeal.RefValue

end
-- ==== Proof.KernelBlock.lean ====
/-
  What the kernel body stores in its output block, entry by entry, at the ideal values.

  At a grid point the body holds a block `x` of 2048 input rows ([2048, 128]), the matching blocks `hre`, `him` of the
  two state parts ([2048, 256] each), the two transition rows `lre`, `lim` ([1, 256]) and the fused weight `w`
  ([128, 512]: the scaled real weight, transposed, in columns 0 … 255 and the scaled imaginary weight, transposed, in
  columns 256 … 511). It forms ONE product `x · w` ([2048, 512]) and stores
      slab 0, entry (r, h):  lre h · hre (r, h) − lim h · him (r, h) + (x · w) (r, h)
      slab 1, entry (r, h):  lre h · him (r, h) + lim h · hre (r, h) + (x · w) (r, 256 + h).
  Here each stored value is read at an entry: the product as a sum over the 128 contracted columns (roundings to
  bf16 are the identity at the ideal values), the slices as column offsets, the row broadcasts as the row's entry.
-/
import proofs.«121439_j15032385536244_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The product read at an entry -/

theorem lhs_row (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
theorem lhs_col (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
theorem rhs_row (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
theorem rhs_col (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The [2048, 128] × [128, 512] product into a zero accumulator, at entry (r, c), is the sum over the 128 contracted
    columns of the left operand's (r, k) times the right operand's (k, c). -/
theorem product_apply (l : FVec Ideal S2048x128 .bf16) (w : FVec Ideal S128x512 .bf16) (r : Fin 2048) (c : Fin 512) :
    matmul dot_S2048x128_S128x512_S2048x512_1_0_0_1_n_n none l w (constant (F := Ideal) S2048x512 .f32 0x00000000#32) (ix2 r c)
      = ∑ k : Fin 128, l (ix2 r k) * w (ix2 k c) := by
  show FloatOps.matmul dot_S2048x128_S128x512_S2048x512_1_0_0_1_n_n none l w (constant (F := Ideal) S2048x512 .f32 0x00000000#32) (ix2 r c) = _
  rw [Ideal.matmul_constant_zero_apply, ← Equiv.sum_comp (contrEquiv1 dot_S2048x128_S128x512_S2048x512_1_0_0_1_n_n 128 rfl rfl).symm]
  refine Finset.sum_congr rfl fun k _ => ?_
  have hk := contrEquiv1_symm_val dot_S2048x128_S128x512_S2048x512_1_0_0_1_n_n 128 rfl rfl k
  have el : dot_S2048x128_S128x512_S2048x512_1_0_0_1_n_n.lhsIdx (ix2 r c) ((contrEquiv1 dot_S2048x128_S128x512_S2048x512_1_0_0_1_n_n 128 rfl rfl).symm k) = ix2 r k := funext fun a => Fin.ext (by
    match a with
    | ⟨0, _⟩ => exact lhs_row _ _
    | ⟨1, _⟩ => exact (lhs_col _ _).trans hk)
  have er : dot_S2048x128_S128x512_S2048x512_1_0_0_1_n_n.rhsIdx (ix2 r c) ((contrEquiv1 dot_S2048x128_S128x512_S2048x512_1_0_0_1_n_n 128 rfl rfl).symm k) = ix2 k c := funext fun a => Fin.ext (by
    match a with
    | ⟨0, _⟩ => exact (rhs_row _ _).trans hk
    | ⟨1, _⟩ => exact rhs_col _ _)
  rw [el, er]

/-- The fused projection as the body forms it (the input block rounded to bf16, the weight block as loaded), at entry
    (r, c): `∑ k, x (r, k) · w (k, c)`. -/
theorem fused_apply (v0 : FVec Ideal S2048x128 .f32) (v2 : FVec Ideal S128x512 .bf16) (r : Fin 2048) (c : Fin 512) :
    k0_pay1 (F := Ideal) v0 v2 (ix2 r c) = ∑ k : Fin 128, v0 (ix2 r k) * v2 (ix2 k c) := by
  unfold k0_pay1
  refine (congrFun (congrArg (fun z => matmul dot_S2048x128_S128x512_S2048x512_1_0_0_1_n_n none (truncf .bf16 v0 bitsLt_bf16_f32) z
      (constant (F := Ideal) S2048x512 .f32 0x00000000#32)) (shapeCast_self v2 shapeCasts_S128x512_S128x512)) (ix2 r c)).trans ?_
  exact product_apply (truncf .bf16 v0 bitsLt_bf16_f32) v2 r c

/-- A transition row as the body holds it, spread over the block's 2048 rows, at (r, h), is the row's entry h. -/
theorem row_apply (v : FVec Ideal S1x256 .f32) (r : Fin 2048) (h : Fin 256) :
    broadcastTo S2048x256 (shapeCast S1x256 v shapeCasts_S1x256_S1x256) broadcasts_S1x256_S2048x256 (ix2 r h)
      = v (ix2 (0 : Fin 1) h) := by
  refine (broadcastTo_1b_ab_apply _ broadcasts_S1x256_S2048x256 r h).trans ?_
  exact congrFun (shapeCast_self v shapeCasts_S1x256_S1x256) _

/-! ## The two stored slabs read at an entry -/

/-- What the body stores in slab 0 (the real part), at (u, r, h) of the stored [1, 2048, 256] value. -/
theorem stored_re_apply (v0 : FVec Ideal S2048x128 .f32) (v2 : FVec Ideal S128x512 .bf16) (v7 v9 : FVec Ideal S1x256 .f32)
    (v11 v12 : FVec Ideal S2048x256 .f32) (u : Fin 1) (r : Fin 2048) (h : Fin 256) :
    k0_pay4 (F := Ideal) v0 v2 v7 v9 v11 v12 (ix3 u r h)
      = v7 (ix2 (0 : Fin 1) h) * v11 (ix2 r h) - v9 (ix2 (0 : Fin 1) h) * v12 (ix2 r h)
        + ∑ k : Fin 128, v0 (ix2 r k) * v2 (ix2 k (⟨h.val, by omega⟩ : Fin 512)) := by
  unfold k0_pay4 k0_pay2 k0_pay3
  refine (shapeCast_ab_1ab_apply _ shapeCasts_S2048x256_S1x2048x256 u r h).trans ?_
  show (broadcastTo S2048x256 (shapeCast S1x256 v7 shapeCasts_S1x256_S1x256) broadcasts_S1x256_S2048x256 (ix2 r h) * v11 (ix2 r h)
      - broadcastTo S2048x256 (shapeCast S1x256 v9 shapeCasts_S1x256_S1x256) broadcasts_S1x256_S2048x256 (ix2 r h) * v12 (ix2 r h))
      + extractStridedSlice S2048x256 ![0, 0] (k0_pay1 (F := Ideal) v0 v2) slices_S2048x512_o0_0_S2048x256 (ix2 r h) = _
  have e : extractStridedSlice S2048x256 ![0, 0] (k0_pay1 (F := Ideal) v0 v2) slices_S2048x512_o0_0_S2048x256 (ix2 r h)
      = ∑ k : Fin 128, v0 (ix2 r k) * v2 (ix2 k (⟨h.val, by omega⟩ : Fin 512)) :=
    (slice2_axis1_apply 0 (k0_pay1 (F := Ideal) v0 v2) slices_S2048x512_o0_0_S2048x256 r h (⟨h.val, by omega⟩ : Fin 512) (by simp)).trans
      (fused_apply v0 v2 r _)
  rw [row_apply v7 r h, row_apply v9 r h, e]

/-- What the body stores in slab 1 (the imaginary part), at (u, r, h) of the stored [1, 2048, 256] value. -/
theorem stored_im_apply (v0 : FVec Ideal S2048x128 .f32) (v2 : FVec Ideal S128x512 .bf16) (v7 v9 : FVec Ideal S1x256 .f32)
    (v11 v12 : FVec Ideal S2048x256 .f32) (u : Fin 1) (r : Fin 2048) (h : Fin 256) :
    k0_pay5 (F := Ideal) v0 v2 v7 v9 v11 v12 (ix3 u r h)
      = v7 (ix2 (0 : Fin 1) h) * v12 (ix2 r h) + v9 (ix2 (0 : Fin 1) h) * v11 (ix2 r h)
        + ∑ k : Fin 128, v0 (ix2 r k) * v2 (ix2 k (⟨256 + h.val, by omega⟩ : Fin 512)) := by
  unfold k0_pay5 k0_pay2 k0_pay3
  refine (shapeCast_ab_1ab_apply _ shapeCasts_S2048x256_S1x2048x256 u r h).trans ?_
  show (broadcastTo S2048x256 (shapeCast S1x256 v7 shapeCasts_S1x256_S1x256) broadcasts_S1x256_S2048x256 (ix2 r h) * v12 (ix2 r h)
      + broadcastTo S2048x256 (shapeCast S1x256 v9 shapeCasts_S1x256_S1x256) broadcasts_S1x256_S2048x256 (ix2 r h) * v11 (ix2 r h))
      + extractStridedSlice S2048x256 ![0, 256] (k0_pay1 (F := Ideal) v0 v2) slices_S2048x512_o0_256_S2048x256 (ix2 r h) = _
  have e : extractStridedSlice S2048x256 ![0, 256] (k0_pay1 (F := Ideal) v0 v2) slices_S2048x512_o0_256_S2048x256 (ix2 r h)
      = ∑ k : Fin 128, v0 (ix2 r k) * v2 (ix2 k (⟨256 + h.val, by omega⟩ : Fin 512)) :=
    (slice2_axis1_apply 256 (k0_pay1 (F := Ideal) v0 v2) slices_S2048x512_o0_256_S2048x256 r h (⟨256 + h.val, by omega⟩ : Fin 512) rfl).trans
      (fused_apply v0 v2 r _)
  rw [row_apply v7 r h, row_apply v9 r h, e]

end Cert.KernelIdeal.BlockValue

end
-- ==== Proof.KernelOut.lean ====
/-
  The kernel's output block after the body, entry by entry: slab 0 is what the first store wrote, slab 1 what the
  second store wrote.

  The body writes its [2, 2048, 256] output block by two stores, each of a whole [1, 2048, 256] slab: the first at
  offset 0 of the leading axis (the real part), the second at offset 1 (the imaginary part). The two slabs tile the
  block, so the block after the body is ONE function of the block index (s, r, h): the real-part entry when s = 0, the
  imaginary-part entry when s = 1, each as KernelBlock.lean reads it.
-/
import proofs.«121439_j15032385536244_2_alg».proof.Proof.Gen.KernelIdeal.Frame
import proofs.«121439_j15032385536244_2_alg».proof.Proof.KernelBlock
import Idealize.ShloMosaic.Lib.Pipeline.Value

set_option maxRecDepth 16384

noncomputable section

namespace Cert.KernelIdeal.BlockValue

open Cert.KernelIdeal Cert.KernelIdeal.Gen Idealize.ShloMosaic Idealize.ShloMosaic.ValueIdx

theorem zero2 : (![0, 0] : Fin 2 → Nat) = fun _ => 0 := funext fun a => by fin_cases a <;> rfl

/-- The real-part entry (r, h) of a block, from the body's loaded blocks. -/
def reEntry (x0 : FVec Ideal S2048x128 .f32) (x1 x2 : FVec Ideal S2048x256 .f32) (x3 x4 : FVec Ideal S1x256 .f32)
    (x5 : FVec Ideal S128x512 .bf16) (r : Fin 2048) (h : Fin 256) : EReal :=
  x3 (ix2 (0 : Fin 1) h) * x1 (ix2 r h) - x4 (ix2 (0 : Fin 1) h) * x2 (ix2 r h)
    + ∑ k : Fin 128, x0 (ix2 r k) * x5 (ix2 k (⟨h.val, by omega⟩ : Fin 512))

/-- The imaginary-part entry (r, h) of a block, from the body's loaded blocks. -/
def imEntry (x0 : FVec Ideal S2048x128 .f32) (x1 x2 : FVec Ideal S2048x256 .f32) (x3 x4 : FVec Ideal S1x256 .f32)
    (x5 : FVec Ideal S128x512 .bf16) (r : Fin 2048) (h : Fin 256) : EReal :=
  x3 (ix2 (0 : Fin 1) h) * x2 (ix2 r h) + x4 (ix2 (0 : Fin 1) h) * x1 (ix2 r h)
    + ∑ k : Fin 128, x0 (ix2 r k) * x5 (ix2 k (⟨256 + h.val, by omega⟩ : Fin 512))

/-- The whole output block as one function of its index: real part on slab 0, imaginary part on slab 1. -/
def blockFn (x0 : FVec Ideal S2048x128 .f32) (x1 x2 : FVec Ideal S2048x256 .f32) (x3 x4 : FVec Ideal S1x256 .f32)
    (x5 : FVec Ideal S128x512 .bf16) : FVec Ideal S2x2048x256 .f32 := fun y =>
  if (y 0).val = 0 then reEntry x0 x1 x2 x3 x4 x5 (y 1) (y 2) else imEntry x0 x1 x2 x3 x4 x5 (y 1) (y 2)

theorem blockFn_re (x0 : FVec Ideal S2048x128 .f32) (x1 x2 : FVec Ideal S2048x256 .f32) (x3 x4 : FVec Ideal S1x256 .f32)
    (x5 : FVec Ideal S128x512 .bf16) (s : Fin 2) (hs : s.val = 0) (r : Fin 2048) (h : Fin 256) :
    blockFn x0 x1 x2 x3 x4 x5 (ix3 s r h) = reEntry x0 x1 x2 x3 x4 x5 r h := by
  show (if s.val = 0 then reEntry x0 x1 x2 x3 x4 x5 r h else imEntry x0 x1 x2 x3 x4 x5 r h) = _
  rw [if_pos hs]

theorem blockFn_im (x0 : FVec Ideal S2048x128 .f32) (x1 x2 : FVec Ideal S2048x256 .f32) (x3 x4 : FVec Ideal S1x256 .f32)
    (x5 : FVec Ideal S128x512 .bf16) (s : Fin 2) (hs : s.val = 1) (r : Fin 2048) (h : Fin 256) :
    blockFn x0 x1 x2 x3 x4 x5 (ix3 s r h) = imEntry x0 x1 x2 x3 x4 x5 r h := by
  show (if s.val = 0 then reEntry x0 x1 x2 x3 x4 x5 r h else imEntry x0 x1 x2 x3 x4 x5 r h) = _
  rw [if_neg (by omega)]

/-- The first store's slab sits at leading coordinate 0 of the block. -/
theorem emb_slab0 (u : Fin 1) (r : Fin 2048) (h : Fin 256) : r0_4.emb (ix3 u r h) = ix3 (0 : Fin 2) r h :=
  funext fun a => Fin.ext (by
    have hu : u.val = 0 := by omega
    match a with
    | ⟨0, _⟩ => show 0 + 1 * u.val = 0; omega
    | ⟨1, _⟩ => show 0 + 1 * r.val = r.val; omega
    | ⟨2, _⟩ => show 0 + 1 * h.val = h.val; omega)

/-- The second store's slab sits at leading coordinate 1 of the block. -/
theorem emb_slab1 (u : Fin 1) (r : Fin 2048) (h : Fin 256) : r0_5.emb (ix3 u r h) = ix3 (1 : Fin 2) r h :=
  funext fun a => Fin.ext (by
    have hu : u.val = 0 := by omega
    match a with
    | ⟨0, _⟩ => show 1 + 1 * u.val = 1; omega
    | ⟨1, _⟩ => show 0 + 1 * r.val = r.val; omega
    | ⟨2, _⟩ => show 0 + 1 * h.val = h.val; omega)

/-- The first store's value is the block function on its slab. -/
theorem slab0_eq (x0 : FVec Ideal S2048x128 .f32) (x1 x2 : FVec Ideal S2048x256 .f32) (x3 x4 : FVec Ideal S1x256 .f32)
    (x5 : FVec Ideal S128x512 .bf16) (x : S1x2048x256.Idx) :
    k0_pay4 (F := Ideal) x0 x5 x3 x4 x1 x2 x = blockFn x0 x1 x2 x3 x4 x5 (r0_4.emb x) := by
  obtain ⟨u, r, h, rfl⟩ : ∃ (u : Fin 1) (r : Fin 2048) (h : Fin 256), x = ix3 u r h := ⟨x 0, x 1, x 2, eq_ix3 x⟩
  rw [emb_slab0, blockFn_re _ _ _ _ _ _ (0 : Fin 2) rfl]
  exact stored_re_apply x0 x5 x3 x4 x1 x2 u r h

/-- The second store's value is the block function on its slab. -/
theorem slab1_eq (x0 : FVec Ideal S2048x128 .f32) (x1 x2 : FVec Ideal S2048x256 .f32) (x3 x4 : FVec Ideal S1x256 .f32)
    (x5 : FVec Ideal S128x512 .bf16) (x : S1x2048x256.Idx) :
    k0_pay5 (F := Ideal) x0 x5 x3 x4 x1 x2 x = blockFn x0 x1 x2 x3 x4 x5 (r0_5.emb x) := by
  obtain ⟨u, r, h, rfl⟩ : ∃ (u : Fin 1) (r : Fin 2048) (h : Fin 256), x = ix3 u r h := ⟨x 0, x 1, x 2, eq_ix3 x⟩
  rw [emb_slab1, blockFn_im _ _ _ _ _ _ (1 : Fin 2) rfl]
  exact stored_im_apply x0 x5 x3 x4 x1 x2 u r h

/-- THE BLOCK AFTER THE BODY is the block function of the loaded blocks: each store's slab is that function on the
    slab, and the two slabs cover the block. -/
theorem out_eq (x0 : FVec Ideal S2048x128 .f32) (x1 x2 : FVec Ideal S2048x256 .f32) (x3 x4 : FVec Ideal S1x256 .f32)
    (x5 : FVec Ideal S128x512 .bf16) : out0_6 (F := Ideal) x0 x1 x2 x3 x4 x5 = blockFn x0 x1 x2 x3 x4 x5 := by
  unfold out0_6
  simp only [View.ld_unit_zero (S := S2048x128) zero2, View.ld_unit_zero (S := S128x512) zero2,
    View.ld_unit_zero (S := S1x256) zero2, View.ld_unit_zero (S := S2048x256) zero2]
  funext y
  refine View.canon_apply_of_pieces (Val := Elt Ideal) (S := S2x2048x256) (e := .f32) (blockFn x0 x1 x2 x3 x4 x5) _ (fun p hp => ?_) y (cover0_6 _ _ y)
  rcases List.mem_cons.mp hp with rfl | hp
  · exact slab1_eq x0 x1 x2 x3 x4 x5
  · rcases List.mem_cons.mp hp with rfl | hp
    · exact slab0_eq x0 x1 x2 x3 x4 x5
    · exact absurd hp (List.not_mem_nil)

end Cert.KernelIdeal.BlockValue

end
-- ==== Proof.Weights.lean ====
/-
  The fused weight the kernel's host prefix builds, read at an entry, and the one algebraic law of this certificate.

  Before the kernel is launched the host forms, from the real weight `wre` and the imaginary weight `wim` ([256, 128]
  each) and the gain row `exp γ` ([1, 256]), the [128, 512] matrix whose columns 0 … 255 are `wreᵀ` with column h scaled
  by the gain of unit h, and whose columns 256 … 511 are `wimᵀ` scaled the same way (each half rounded to bf16, which is
  the identity at the ideal values, then the halves set side by side). So its entry (k, h) is `wre (h, k) · gain h` and
  its entry (k, 256 + h) is `wim (h, k) · gain h`: the gain on the RIGHT of the weight, where the reference multiplies
  it on the left. Multiplication of extended reals is commutative at every value, the infinities included, so the two
  agree with no finiteness assumption.
-/
import proofs.«121439_j15032385536244_2_alg».proof.Proof.Gen.KernelIdeal
import proofs.«121439_j15032385536244_2_alg».proof.Proof.Spec
import Idealize.ShloMosaic.Lib.ValueIdx
import Idealize.ShloMosaic.Lib.ValueLayout
import Idealize.ShloMosaic.Lib.Pipeline.Value

noncomputable section

namespace Cert.KernelIdeal.Weights

open Cert.KernelIdeal Cert.KernelIdeal.Gen Cert.LruStep Idealize.ShloMosaic Idealize.ShloMosaic.ValueIdx

/-- One half of the fused weight: a [256, 128] weight transposed, each column h scaled by the gain of unit h. -/
def scaledT (w : FVec Ideal S256x128 .f32) (g : FVec Ideal S1x256 .f32) : FVec Ideal S128x256 .bf16 :=
  truncf .bf16 (mulf (transpose S128x256 [1, 0] w transposes_S256x128_S128x256_1_0)
    (broadcastInDim S128x256 ![0, 1] bcast_S1x256_S128x256_0_1 (Host.exp g))) bitsLt_bf16_f32

/-- The fused weight: the scaled transposed real weight beside the scaled transposed imaginary weight. -/
def fused (wre wim : FVec Ideal S256x128 .f32) (g : FVec Ideal S1x256 .f32) : FVec Ideal S128x512 .bf16 :=
  concatenate S128x512 1 [⟨S128x256, scaledT wre g⟩, ⟨S128x256, scaledT wim g⟩] concatenates_S128x256_S128x256_S128x512_d1

/-- Entry (k, h) of a half: the weight's (h, k) times the gain of unit h. -/
theorem scaledT_apply (w : FVec Ideal S256x128 .f32) (g : FVec Ideal S1x256 .f32) (k : Fin 128) (h : Fin 256) :
    scaledT w g (ix2 k h) = w (ix2 h k) * gain g (ix2 (0 : Fin 1) h) := by
  show transpose S128x256 [1, 0] w transposes_S256x128_S128x256_1_0 (ix2 k h)
      * broadcastInDim S128x256 ![0, 1] bcast_S1x256_S128x256_0_1 (Host.exp g) (ix2 k h) = _
  rw [transpose_ix2_apply w transposes_S256x128_S128x256_1_0 k h]
  refine congrArg (w (ix2 h k) * ·) ?_
  exact broadcastInDim_apply _ bcast_S1x256_S128x256_0_1 (Host.exp g) (ix2 k h) (ix2 (0 : Fin 1) h) (fun a => match a with
    | ⟨0, _⟩ => by show 0 = if (1 : Nat) = 1 then 0 else k.val; rw [if_pos rfl]
    | ⟨1, _⟩ => by show h.val = if (256 : Nat) = 1 then 0 else h.val; rw [if_neg (by decide)])

/-- Columns 0 … 255 of the fused weight are the real half. -/
theorem fused_left (wre wim : FVec Ideal S256x128 .f32) (g : FVec Ideal S1x256 .f32) (k : Fin 128) (h : Fin 256) :
    fused wre wim g (ix2 k (⟨h.val, by omega⟩ : Fin 512)) = wre (ix2 h k) * gain g (ix2 (0 : Fin 1) h) := by
  unfold fused
  refine (concatenate_pair_apply_left (1 : Fin 2) (scaledT wre g) (scaledT wim g) concatenates_S128x256_S128x256_S128x512_d1
    (ix2 k (⟨h.val, by omega⟩ : Fin 512)) rfl (ix2 k h) (fun b => match b with
      | ⟨0, _⟩ => rfl
      | ⟨1, _⟩ => rfl)).trans ?_
  exact scaledT_apply wre g k h

/-- Columns 256 … 511 of the fused weight are the imaginary half. -/
theorem fused_right (wre wim : FVec Ideal S256x128 .f32) (g : FVec Ideal S1x256 .f32) (k : Fin 128) (h : Fin 256) :
    fused wre wim g (ix2 k (⟨256 + h.val, by omega⟩ : Fin 512)) = wim (ix2 h k) * gain g (ix2 (0 : Fin 1) h) := by
  unfold fused
  refine (concatenate_pair_apply_right (1 : Fin 2) (scaledT wre g) (scaledT wim g) concatenates_S128x256_S128x256_S128x512_d1
    (ix2 k (⟨256 + h.val, by omega⟩ : Fin 512)) rfl rfl (ix2 k h) (fun b hb => match b, hb with
      | ⟨0, _⟩, _ => rfl
      | ⟨1, _⟩, hb => absurd rfl hb) (by show h.val + 256 = 256 + h.val; omega)).trans ?_
  exact scaledT_apply wim g k h

/-- THE LAW: a projection against a weight scaled on the right is the projection against it scaled on the left. -/
theorem proj_comm (x : FVec Ideal SIn .f32) (w : FVec Ideal SW .f32) (sc : FVec Ideal SRow .f32) (b : Fin 262144) (h : Fin 256) :
    ∑ k : Fin 128, x (ix2 b k) * (w (ix2 h k) * sc (ix2 (0 : Fin 1) h))
      = ∑ k : Fin 128, x (ix2 b k) * (sc (ix2 (0 : Fin 1) h) * w (ix2 h k)) :=
  Finset.sum_congr rfl fun k _ => by rw [mul_comm (w (ix2 h k))]

end Cert.KernelIdeal.Weights

end
-- ==== Proof.KernelValue.lean ====
/-
  From the kernel's blocks to its whole output array: after the run the output array is the recurrence step of the
  argument arrays.

  The grid has 128 points; point t works on batch rows 2048·t … 2048·t + 2047. Its input blocks are rows of the
  argument arrays `x`, `hre`, `him` at those batch rows, the two transition rows and the fused weight whole (the
  same at every point: the host computed them before the launch), and its output block is both slabs of the output
  at those batch rows. So entry (s, r, h) of the block point t writes back is entry (s, 2048·t + r, h) of the step
  function; every batch row lies in exactly the block of point ⌊row / 2048⌋, so the blocks cover the array.
-/
import proofs.«121439_j15032385536244_2_alg».proof.Proof.Gen.KernelIdeal.Value
import proofs.«121439_j15032385536244_2_alg».proof.Proof.KernelOut
import proofs.«121439_j15032385536244_2_alg».proof.Proof.Weights
import proofs.«121439_j15032385536244_2_alg».proof.Proof.Spec
import Idealize.ShloMosaic.Lib.Pipeline.Value
import Idealize.ShloMosaic.Lib.StableHlo.Run

set_option maxRecDepth 16384

noncomputable section

namespace Cert.KernelIdeal.ArrayValue

open Cert.KernelIdeal Cert.KernelIdeal.Gen Cert.KernelIdeal.BlockValue Cert.KernelIdeal.Weights Cert.LruStep
open Idealize.ShloMosaic Idealize.ShloMosaic.TcCoe Idealize.ShloMosaic.ValueIdx Idealize.SL.Sem Idealize.ShloMosaic.StableHlo
open Idealize.ShloMosaic.Pipeline (Dat)

variable (m : (ℓ : Loc nD τ sig) → Buf (Elt Ideal) ℓ) (ρ : Dev nD → PrngReg)

/-- The recurrence step of the argument arrays as launched, on core `c`. -/
def target (c : Dev nD) : FVec Ideal SOut .f32 :=
  step (m ((c : Thread nD τ).loc main_arg0)) (m ((c : Thread nD τ).loc main_arg1)) (m ((c : Thread nD τ).loc main_arg2))
      (lamRe (m ((c : Thread nD τ).loc main_arg3)) (m ((c : Thread nD τ).loc main_arg4))) (lamIm (m ((c : Thread nD τ).loc main_arg3)) (m ((c : Thread nD τ).loc main_arg4)))
      (gain (m ((c : Thread nD τ).loc main_arg7))) (m ((c : Thread nD τ).loc main_arg5)) (m ((c : Thread nD τ).loc main_arg6))

/-! ## What the host prefix leaves in the three windows it computes -/

/-- The region finds the real transition row in the buffer window 3 stages. -/
theorem entry_lamRe (c : Dev nD) :
    (V m c main_v5 : S1x256.Idx → EReal) = lamRe (m ((c : Thread nD τ).loc main_arg3)) (m ((c : Thread nD τ).loc main_arg4)) := by
  dsimp only [Gen.V, Gen.hostOps0]; after_results; rfl

/-- The region finds the imaginary transition row in the buffer window 4 stages. -/
theorem entry_lamIm (c : Dev nD) :
    (V m c main_v7 : S1x256.Idx → EReal) = lamIm (m ((c : Thread nD τ).loc main_arg3)) (m ((c : Thread nD τ).loc main_arg4)) := by
  dsimp only [Gen.V, Gen.hostOps0]; after_results; rfl

/-- The region finds the fused weight in the buffer window 5 stages. -/
theorem entry_fused (c : Dev nD) :
    (V m c main_v17 : S128x512.Idx → EReal) = fused (m ((c : Thread nD τ).loc main_arg5)) (m ((c : Thread nD τ).loc main_arg6)) (m ((c : Thread nD τ).loc main_arg7)) := by
  dsimp only [Gen.V, Gen.hostOps0]; after_results; rfl

/-! ## Where each window's block sits at a point -/

/-- The printed index maps over the 128 points: the three row-blocked inputs and the output move with the point along
    the batch axis, the three host-computed operands stay at block 0. -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = 0 ∧ win0_6.index t (1 : Fin 3) = t.val ∧ win0_6.index t (2 : Fin 3) = 0 :=
  (by decide +kernel : ∀ t : Fin grid0.N, _)

/-- Row `r` of point `t`'s block is a batch row of the array. -/
theorem row_lt (t : Fin cfg0.N) (r : Fin 2048) : t.val * 2048 + r.val < 262144 := by
  have hN : cfg0.N = 128 := N_0
  have h1 : t.val < cfg0.N := t.isLt
  have h2 : r.val < 2048 := r.isLt
  omega

/-- The batch row of the array that row `r` of point `t`'s block is: 2048·t + r. -/
def rowOf (t : Fin cfg0.N) (r : Fin 2048) : Fin 262144 := ⟨t.val * 2048 + r.val, row_lt t r⟩

/-- Row `r` of the input block at point `t` is batch row 2048·t + r of the input array. -/
theorem block_x (c : Dev nD) (t : Fin cfg0.N) (r : Fin 2048) (k : Fin 128) :
    iblk m c 0 t (ix2 r k) = (m ((c : Thread nD τ).loc main_arg0)) (ix2 (rowOf t r) k) := by
  obtain ⟨e0, e1, -⟩ := index_facts t
  show V m c main_arg0 (((cfg0.win 0).blk t).view.emb (ix2 r k)) = _
  rw [V_main_arg0]
  refine congrArg (m ((c : Thread nD τ).loc main_arg0)) (funext fun a => Fin.ext ?_)
  match a with
  | ⟨0, _⟩ => show win0_0.index t (0 : Fin 2) * 2048 + 1 * r.val = t.val * 2048 + r.val; omega
  | ⟨1, _⟩ => show win0_0.index t (1 : Fin 2) * 128 + 1 * k.val = k.val; omega

/-- Row `r` of the real state block at point `t` is batch row 2048·t + r of the real state. -/
theorem block_hre (c : Dev nD) (t : Fin cfg0.N) (r : Fin 2048) (h : Fin 256) :
    iblk m c 1 t (ix2 r h) = (m ((c : Thread nD τ).loc main_arg1)) (ix2 (rowOf t r) h) := by
  obtain ⟨-, -, e0, e1, -⟩ := index_facts t
  show V m c main_arg1 (((cfg0.win 1).blk t).view.emb (ix2 r h)) = _
  rw [V_main_arg1]
  refine congrArg (m ((c : Thread nD τ).loc main_arg1)) (funext fun a => Fin.ext ?_)
  match a with
  | ⟨0, _⟩ => show win0_1.index t (0 : Fin 2) * 2048 + 1 * r.val = t.val * 2048 + r.val; omega
  | ⟨1, _⟩ => show win0_1.index t (1 : Fin 2) * 256 + 1 * h.val = h.val; omega

/-- Row `r` of the imaginary state block at point `t` is batch row 2048·t + r of the imaginary state. -/
theorem block_him (c : Dev nD) (t : Fin cfg0.N) (r : Fin 2048) (h : Fin 256) :
    iblk m c 2 t (ix2 r h) = (m ((c : Thread nD τ).loc main_arg2)) (ix2 (rowOf t r) h) := by
  obtain ⟨-, -, -, -, e0, e1, -⟩ := index_facts t
  show V m c main_arg2 (((cfg0.win 2).blk t).view.emb (ix2 r h)) = _
  rw [V_main_arg2]
  refine congrArg (m ((c : Thread nD τ).loc main_arg2)) (funext fun a => Fin.ext ?_)
  match a with
  | ⟨0, _⟩ => show win0_2.index t (0 : Fin 2) * 2048 + 1 * r.val = t.val * 2048 + r.val; omega
  | ⟨1, _⟩ => show win0_2.index t (1 : Fin 2) * 256 + 1 * h.val = h.val; omega

/-- The real transition row is whole at every point. -/
theorem block_lamRe (c : Dev nD) (t : Fin cfg0.N) (h : Fin 256) :
    iblk m c 3 t (ix2 (0 : Fin 1) h) = lamRe (m ((c : Thread nD τ).loc main_arg3)) (m ((c : Thread nD τ).loc main_arg4)) (ix2 (0 : Fin 1) h) := by
  obtain ⟨-, -, -, -, -, -, e0, e1, -⟩ := index_facts t
  show (V m c main_v5 : S1x256.Idx → EReal) (((cfg0.win 3).blk t).view.emb (ix2 (0 : Fin 1) h)) = _
  rw [entry_lamRe]
  refine congrArg (lamRe (m ((c : Thread nD τ).loc main_arg3)) (m ((c : Thread nD τ).loc main_arg4))) (funext fun a => Fin.ext ?_)
  match a with
  | ⟨0, _⟩ => show win0_3.index t (0 : Fin 2) * 1 + 1 * 0 = 0; omega
  | ⟨1, _⟩ => show win0_3.index t (1 : Fin 2) * 256 + 1 * h.val = h.val; omega

/-- The imaginary transition row is whole at every point. -/
theorem block_lamIm (c : Dev nD) (t : Fin cfg0.N) (h : Fin 256) :
    iblk m c 4 t (ix2 (0 : Fin 1) h) = lamIm (m ((c : Thread nD τ).loc main_arg3)) (m ((c : Thread nD τ).loc main_arg4)) (ix2 (0 : Fin 1) h) := by
  obtain ⟨-, -, -, -, -, -, -, -, e0, e1, -⟩ := index_facts t
  show (V m c main_v7 : S1x256.Idx → EReal) (((cfg0.win 4).blk t).view.emb (ix2 (0 : Fin 1) h)) = _
  rw [entry_lamIm]
  refine congrArg (lamIm (m ((c : Thread nD τ).loc main_arg3)) (m ((c : Thread nD τ).loc main_arg4))) (funext fun a => Fin.ext ?_)
  match a with
  | ⟨0, _⟩ => show win0_4.index t (0 : Fin 2) * 1 + 1 * 0 = 0; omega
  | ⟨1, _⟩ => show win0_4.index t (1 : Fin 2) * 256 + 1 * h.val = h.val; omega

/-- The fused weight is whole at every point. -/
theorem block_fused (c : Dev nD) (t : Fin cfg0.N) (k : Fin 128) (j : Fin 512) :
    iblk m c 5 t (ix2 k j) = fused (m ((c : Thread nD τ).loc main_arg5)) (m ((c : Thread nD τ).loc main_arg6)) (m ((c : Thread nD τ).loc main_arg7)) (ix2 k j) := by
  obtain ⟨-, -, -, -, -, -, -, -, -, -, e0, e1, -⟩ := index_facts t
  show (V m c main_v17 : S128x512.Idx → EReal) (((cfg0.win 5).blk t).view.emb (ix2 k j)) = _
  rw [entry_fused]
  refine congrArg (fused (m ((c : Thread nD τ).loc main_arg5)) (m ((c : Thread nD τ).loc main_arg6)) (m ((c : Thread nD τ).loc main_arg7))) (funext fun a => Fin.ext ?_)
  match a with
  | ⟨0, _⟩ => show win0_5.index t (0 : Fin 2) * 128 + 1 * k.val = k.val; omega
  | ⟨1, _⟩ => show win0_5.index t (1 : Fin 2) * 512 + 1 * j.val = j.val; omega

/-- Entry (s, r, h) of the output block at point `t` is entry (s, 2048·t + r, h) of the output array. -/
theorem block_out (t : Fin cfg0.N) (s : Fin 2) (r : Fin 2048) (h : Fin 256) :
    ((cfg0.win 6).blk t).view.emb (ix3 s r h) = ix3 s (rowOf t r) h := by
  obtain ⟨-, -, -, -, -, -, -, -, -, -, -, -, e0, e1, e2⟩ := index_facts t
  refine funext fun a => Fin.ext ?_
  match a with
  | ⟨0, _⟩ => show win0_6.index t (0 : Fin 3) * 2 + 1 * s.val = s.val; omega
  | ⟨1, _⟩ => show win0_6.index t (1 : Fin 3) * 2048 + 1 * r.val = t.val * 2048 + r.val; omega
  | ⟨2, _⟩ => show win0_6.index t (2 : Fin 3) * 256 + 1 * h.val = h.val; omega

/-! ## What a point writes back -/

/-- The real-part entry of the block at point `t` is the step's real part at the block's batch row. -/
theorem re_at (c : Dev nD) (t : Fin cfg0.N) (r : Fin 2048) (h : Fin 256) :
    reEntry (iblk m c 0 t) (iblk m c 1 t) (iblk m c 2 t) (iblk m c 3 t) (iblk m c 4 t) (iblk m c 5 t) r h
      = outRe (m ((c : Thread nD τ).loc main_arg0)) (m ((c : Thread nD τ).loc main_arg1)) (m ((c : Thread nD τ).loc main_arg2))
          (lamRe (m ((c : Thread nD τ).loc main_arg3)) (m ((c : Thread nD τ).loc main_arg4))) (lamIm (m ((c : Thread nD τ).loc main_arg3)) (m ((c : Thread nD τ).loc main_arg4)))
          (gain (m ((c : Thread nD τ).loc main_arg7))) (m ((c : Thread nD τ).loc main_arg5)) (rowOf t r) h := by
  unfold reEntry outRe
  rw [block_lamRe m c t h, block_lamIm m c t h, block_hre m c t r h, block_him m c t r h,
    ← proj_comm (m ((c : Thread nD τ).loc main_arg0)) (m ((c : Thread nD τ).loc main_arg5)) (gain (m ((c : Thread nD τ).loc main_arg7))) (rowOf t r) h]
  refine congrArg (_ + ·) (Finset.sum_congr rfl fun k _ => ?_)
  rw [block_x m c t r k, block_fused m c t k _, fused_left]

/-- The imaginary-part entry of the block at point `t` is the step's imaginary part at the block's batch row. -/
theorem im_at (c : Dev nD) (t : Fin cfg0.N) (r : Fin 2048) (h : Fin 256) :
    imEntry (iblk m c 0 t) (iblk m c 1 t) (iblk m c 2 t) (iblk m c 3 t) (iblk m c 4 t) (iblk m c 5 t) r h
      = outIm (m ((c : Thread nD τ).loc main_arg0)) (m ((c : Thread nD τ).loc main_arg1)) (m ((c : Thread nD τ).loc main_arg2))
          (lamRe (m ((c : Thread nD τ).loc main_arg3)) (m ((c : Thread nD τ).loc main_arg4))) (lamIm (m ((c : Thread nD τ).loc main_arg3)) (m ((c : Thread nD τ).loc main_arg4)))
          (gain (m ((c : Thread nD τ).loc main_arg7))) (m ((c : Thread nD τ).loc main_arg6)) (rowOf t r) h := by
  unfold imEntry outIm
  rw [block_lamRe m c t h, block_lamIm m c t h, block_hre m c t r h, block_him m c t r h,
    ← proj_comm (m ((c : Thread nD τ).loc main_arg0)) (m ((c : Thread nD τ).loc main_arg6)) (gain (m ((c : Thread nD τ).loc main_arg7))) (rowOf t r) h]
  refine congrArg (_ + ·) (Finset.sum_congr rfl fun k _ => ?_)
  rw [block_x m c t r k, block_fused m c t k _, fused_right]

/-- WHAT POINT `t` WRITES BACK is block `t` of the step of the argument arrays. -/
theorem flushed_eq (c : Dev nD) (t : Fin cfg0.N) :
    (dats m 0 c).flushed 6 t = ((cfg0.win 6).blk t).view.read (Elt Ideal) (target m c) := by
  rw [Value.flushed6, out_eq]
  funext y
  obtain ⟨s, r, h, rfl⟩ : ∃ (s : Fin 2) (r : Fin 2048) (h : Fin 256), y = ix3 s r h := ⟨y 0, y 1, y 2, eq_ix3 y⟩
  show blockFn (iblk m c 0 t) (iblk m c 1 t) (iblk m c 2 t) (iblk m c 3 t) (iblk m c 4 t) (iblk m c 5 t) (ix3 s r h)
    = target m c (((cfg0.win 6).blk t).view.emb (ix3 s r h))
  rw [block_out t s r h]
  unfold target
  rcases (by omega : s.val = 0 ∨ s.val = 1) with hs | hs
  · rw [blockFn_re _ _ _ _ _ _ s hs, step_re _ _ _ _ _ _ _ _ s hs]
    exact re_at m c t r h
  · rw [blockFn_im _ _ _ _ _ _ s hs, step_im _ _ _ _ _ _ _ _ s hs]
    exact im_at m c t r h

/-! ## The blocks cover the array -/

/-- An index of the output array is in point `t`'s block iff each coordinate is in the block's range on its axis. -/
theorem mem_block (t : Fin cfg0.N) (i : S2x262144x256.Idx) :
    i ∈ ((cfg0.win 6).blk t).view.set ↔ ∀ a : Fin 3, win0_6.index t a * S2x2048x256.size a ≤ (i a).val
      ∧ (i a).val < win0_6.index t a * S2x2048x256.size a + S2x2048x256.size a := by
  show i ∈ ((View.whole main_v18).slice (win0_6.rect t)).set ↔ _
  rw [View.set_slice_whole, Rect.mem_set_unit]
  exact Iff.rfl

/-- Every index of the output array lies in the block of the point its batch row falls in. -/
theorem cover (i : S2x262144x256.Idx) :
    ∃ t : Fin cfg0.N, (cfg0.win 6).flush t = true ∧ i ∈ ((cfg0.win 6).blk t).view.set := by
  have h0 : (i 0).val < 2 := (i 0).isLt
  have h1 : (i 1).val < 262144 := (i 1).isLt
  have h2 : (i 2).val < 256 := (i 2).isLt
  have hN : cfg0.N = 128 := N_0
  let t : Fin cfg0.N := ⟨(i 1).val / 2048, by rw [hN]; omega⟩
  have ht : t.val = (i 1).val / 2048 := rfl
  obtain ⟨-, -, -, -, -, -, -, -, -, -, -, -, e0, e1, e2⟩ := index_facts t
  refine ⟨t, flush0_6 t, ?_⟩
  rw [mem_block]
  intro a
  match a with
  | ⟨0, _⟩ => show win0_6.index t (0 : Fin 3) * 2 ≤ (i 0).val ∧ (i 0).val < win0_6.index t (0 : Fin 3) * 2 + 2; omega
  | ⟨1, _⟩ => show win0_6.index t (1 : Fin 3) * 2048 ≤ (i 1).val ∧ (i 1).val < win0_6.index t (1 : Fin 3) * 2048 + 2048; omega
  | ⟨2, _⟩ => show win0_6.index t (2 : Fin 3) * 256 ≤ (i 2).val ∧ (i 2).val < win0_6.index t (2 : Fin 3) * 256 + 256; omega

/-- THE OUTPUT ARRAY after the run is the step of the argument arrays. -/
theorem final (c : Dev nD) : (dats m 0 c).arrAt 6 cfg0.N = target m c :=
  (dats m 0 c).arrAt_eq_of_cover 6 (target m c) (fun t _ => flushed_eq m c t) cover

/-! ## The run, read -/

/-- Every weakly fair execution of the kernel's program terminates with the output array at the step of the argument
    arrays and the argument arrays unchanged. -/
theorem run : θ_run defs (onTc (τ := τ) (main (F := Ideal))) ⟨m, fun _ => 0, ρ⟩ fun r => ∀ c : Dev nD,
      r.2.mem ((c : Thread nD τ).loc main_v18) = target m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.lean ====
/-
  The kernel and its reference compute one step of a diagonal complex linear recurrence, and compute it equally on
  the extended reals.

  Both programs take the input rows `x` ([B, I]), the real and imaginary parts `hre`, `him` of the state ([B, H]),
  the parameter rows ν, θ, γ ([1, H]) and the real and imaginary parts `Wre`, `Wim` of the input weight ([H, I]), and
  return the new state `λ ⊙ h + x · (exp γ ⊙ W)ᵀ` as its real part stacked on its imaginary part ([2, B, H]), where
  `λ = exp (-exp ν) · (cos (exp θ) + i · sin (exp θ))` (Proof/Spec.lean writes the function out, entry by entry).

  The reference forms the two scaled weights `exp γ ⊙ Wre`, `exp γ ⊙ Wim`, two matrix products and the complex
  arithmetic on whole arrays, then stacks the two parts (Proof/RefIsStep.lean reads it at an entry; no law is needed).
  The kernel's host prefix forms λ's two rows and ONE fused weight — `Wreᵀ` and `Wimᵀ` with their columns scaled by the
  gain, side by side — and the kernel, on a grid of 128 points of 2048 batch rows each, forms one product of the row
  block with the fused weight, splits it in two halves of 256 columns and stores the two parts of the new state as
  the two slabs of its output block (Proof/KernelBlock.lean and Proof/KernelOut.lean read the block at an entry,
  Proof/Weights.lean the fused weight, Proof/KernelValue.lean carries the blocks to the whole array). A rounding to
  bf16 is the identity at the ideal values, and a product accumulated from zero is the plain sum over the contracted
  axis, so the only difference left between the two sides is the side on which the gain multiplies a weight entry:
  `Wre (h, k) · gain h` against `gain h · Wre (h, k)`. Multiplication of extended reals is commutative, infinities
  included, so the results agree for ALL inputs: the finiteness precondition is never used.

  The three frames are the generated frame runs (the reference's is its run with the result forgotten); the ideal
  pass rewrote nothing, so the idealized kernel is the kernel's own text read at the ideal values.
-/
import proofs.«121439_j15032385536244_2_alg».proof.Defs
import proofs.«121439_j15032385536244_2_alg».proof.Proof.Gen.Kernel
import proofs.«121439_j15032385536244_2_alg».proof.Proof.Gen.Kernel.Frame
import proofs.«121439_j15032385536244_2_alg».proof.Proof.Gen.KernelIdeal
import proofs.«121439_j15032385536244_2_alg».proof.Proof.Gen.KernelIdeal.Frame
import proofs.«121439_j15032385536244_2_alg».proof.Proof.Gen.KernelIdeal.Value
import proofs.«121439_j15032385536244_2_alg».proof.Proof.Gen.ReferenceIdeal
import proofs.«121439_j15032385536244_2_alg».proof.Proof.Gen.Pre_finite_inputs
import proofs.«121439_j15032385536244_2_alg».proof.Proof.RefRun
import proofs.«121439_j15032385536244_2_alg».proof.Proof.RefRead
import proofs.«121439_j15032385536244_2_alg».proof.Proof.RefIsStep
import proofs.«121439_j15032385536244_2_alg».proof.Proof.KernelValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- The kernel read at the ideal values runs and leaves its arguments unchanged. -/
theorem frame_kernelIdeal : Cert.frame_KernelIdeal := fun m ρ _ => Cert.KernelIdeal.Gen.frame m ρ

/-- The reference runs and leaves its arguments unchanged: its run, the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the arguments both programs end with the recurrence step of those arguments: the
    kernel's output array block by block, the reference's stacked result stage by stage. -/
theorem algebraic : Cert.algebraic_KernelIdeal_ReferenceIdeal := by
  intro m ρ m' ρ' _ hagree
  refine ⟨fun c => Cert.KernelIdeal.ArrayValue.target m c, Cert.KernelIdeal.ArrayValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v32_eq, Cert.ReferenceIdeal.RefValue.reference_is_step]
  obtain ⟨e0, e1, e2, e3, e4, e5, e6, e7⟩ := hagree c
  rw [e0, e1, e2, e3, e4, e5, e6, e7]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
